-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x768 : Shape := ⟨3, ![64, 512, 768]⟩
abbrev S768x768 : Shape := ⟨2, ![768, 768]⟩
abbrev S768 : Shape := ⟨1, ![768]⟩
abbrev S64x512 : Shape := ⟨2, ![64, 512]⟩
abbrev S64x16x2 : Shape := ⟨3, ![64, 16, 2]⟩
abbrev S_ : Shape := ⟨0, ![]⟩

class Facts : Prop where
  bcast_S_S64x512x768 : S_.BroadcastsInDim S64x512x768 (![] : Fin 0 → Fin S64x512x768.rank)
  reducesTo_S64x512x768_S_d0_1_2 : S64x512x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn {F : FTy → Type} [FloatOps F] (main_arg0 : FVec F S64x512x768 .f32) (main_arg1 : FVec F S768x768 .f32) (main_arg2 : FVec F S768 .f32) (main_arg3 : IVec S64x512 32) (main_arg4 : IVec S64x16x2 32) : IVec S_ 1 :=
  let main_v0 : FVec F S64x512x768 .f32 := Host.absf main_arg0
  let main_cst : FVec F S_ .f32 := constant S_ .f32 0x7F800000#32
  let main_v1 : FVec F S64x512x768 .f32 := broadcastInDim S64x512x768 ![] bcast_S_S64x512x768 main_cst
  let main_v2 : IVec S64x512x768 1 := cmpf .olt main_v0 main_v1
  let main_c : IVec S_ 1 := constantI S_ 1 1#1
  let main_v3 : IVec S_ 1 := (fun x v => Host.reduce IntOp.andi x v reducesTo_S64x512x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  main_v13
-- ==== Kernel.lean ====
abbrev S64x512x768 : Shape := ⟨3, ![64, 512, 768]⟩
abbrev S768x768 : Shape := ⟨2, ![768, 768]⟩
abbrev S768 : Shape := ⟨1, ![768]⟩
abbrev S64x512 : Shape := ⟨2, ![64, 512]⟩
abbrev S64x16x2 : Shape := ⟨3, ![64, 16, 2]⟩
abbrev S64x1x768 : Shape := ⟨3, ![64, 1, 768]⟩
abbrev S1024x768 : Shape := ⟨2, ![1024, 768]⟩
abbrev S4x512x768 : Shape := ⟨3, ![4, 512, 768]⟩
abbrev S4x16x2 : Shape := ⟨3, ![4, 16, 2]⟩
abbrev S4x1x768 : Shape := ⟨3, ![4, 1, 768]⟩
abbrev S64x768 : Shape := ⟨2, ![64, 768]⟩
abbrev S2048x768 : Shape := ⟨2, ![2048, 768]⟩
abbrev S1x768 : Shape := ⟨2, ![1, 768]⟩
abbrev S4x16x1 : Shape := ⟨3, ![4, 16, 1]⟩
abbrev S4x16x512 : Shape := ⟨3, ![4, 16, 512]⟩
abbrev S4x16x768 : Shape := ⟨3, ![4, 16, 768]⟩
abbrev S_ : Shape := ⟨0, ![]⟩
abbrev S64x16 : Shape := ⟨2, ![64, 16]⟩

abbrev nBuf : Space → Nat
  | .hbm => 12
  | .vmem => 10
  | .smem => 0
  | _ => 0

abbrev bufTy : (tb : Table) → Fin (tcTables nBuf tb) → BufTy
  | .hbm, ⟨0, _⟩ => ⟨S64x512x768, .f32⟩
  | .hbm, ⟨1, _⟩ => ⟨S768x768, .f32⟩
  | .hbm, ⟨2, _⟩ => ⟨S768, .f32⟩
  | .hbm, ⟨3, _⟩ => ⟨S64x512, .i32⟩
  | .hbm, ⟨4, _⟩ => ⟨S64x16x2, .i32⟩
  | .hbm, ⟨5, _⟩ => ⟨S768x768, .f32⟩
  | .hbm, ⟨6, _⟩ => ⟨S768x768, .bf16⟩
  | .hbm, ⟨7, _⟩ => ⟨S64x1x768, .f32⟩
  | .hbm, ⟨8, _⟩ => ⟨S1024x768, .f32⟩
  | .hbm, ⟨9, _⟩ => ⟨S64x768, .f32⟩
  | .hbm, ⟨10, _⟩ => ⟨S_, .f32⟩
  | .hbm, ⟨11, _⟩ => ⟨S64x16, .f32⟩
  | .local _ .vmem, ⟨0, _⟩ => ⟨S4x512x768, .f32⟩
  | .local _ .vmem, ⟨1, _⟩ => ⟨S4x512x768, .f32⟩
  | .local _ .vmem, ⟨2, _⟩ => ⟨S768x768, .bf16⟩
  | .local _ .vmem, ⟨3, _⟩ => ⟨S768, .f32⟩
  | .local _ .vmem, ⟨4, _⟩ => ⟨S4x16x2, .i32⟩
  | .local _ .vmem, ⟨5, _⟩ => ⟨S4x16x2, .i32⟩
  | .local _ .vmem, ⟨6, _⟩ => ⟨S4x1x768, .f32⟩
  | .local _ .vmem, ⟨7, _⟩ => ⟨S4x1x768, .f32⟩
  | .local _ .vmem, ⟨8, _⟩ => ⟨S64x768, .f32⟩
  | .local _ .vmem, ⟨9, _⟩ => ⟨S64x768, .f32⟩
  | _, _ => ⟨S64x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x16x2 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S768x768_S768x768_1_0 : S768x768.Transposes [1, 0] S768x768
  bitsLt_bf16_f32 : FTy.bits .bf16 < FTy.bits .f32
  inb_S4x512x768_S4x512x768_0_0_0 : ∀ a, (![0, 0, 0] : Fin 3 → Nat) a + S4x512x768.size a ≤ S4x512x768.size a
  h_S4x512x768 : 0 < S4x512x768.numel
  shapeCasts_S4x512x768_S2048x768 : S4x512x768.ShapeCasts S2048x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S768_S768_0 : ∀ a, (![0] : Fin 1 → Nat) a + S768.size a ≤ S768.size a
  h_S768 : 0 < S768.numel
  shapeCasts_S768_S1x768 : S768.ShapeCasts S1x768
  broadcasts_S1x768_S2048x768 : S1x768.Broadcasts S2048x768
  shapeCasts_S2048x768_S4x512x768 : S2048x768.ShapeCasts S4x512x768
  slices_S4x512x768_o0_0_0_S4x1x768 : S4x512x768.Slices ![0, 0, 0] S4x1x768
  inb_S4x1x768_S4x1x768_0_0_0 : ∀ a, (![0, 0, 0] : Fin 3 → Nat) a + S4x1x768.size a ≤ S4x1x768.size a
  h_S4x1x768 : 0 < S4x1x768.numel
  inb_S4x16x2_S4x16x2_0_0_0 : ∀ a, (![0, 0, 0] : Fin 3 → Nat) a + S4x16x2.size a ≤ S4x16x2.size a
  h_S4x16x2 : 0 < S4x16x2.numel
  slices_S4x16x2_o0_0_0_S4x16x1 : S4x16x2.Slices ![0, 0, 0] S4x16x1
  slices_S4x16x2_o0_0_1_S4x16x1 : S4x16x2.Slices ![0, 0, 1] S4x16x1
  iota_S4x16x512_d2_w32 : S4x16x512.Iotas .tc 32 [2]
  broadcasts_S4x16x1_S4x16x512 : S4x16x1.Broadcasts S4x16x512
  natLt_1_32 : 1 < 32
  broadcasts_S4x16x1_S4x16x768 : S4x16x1.Broadcasts S4x16x768
  shapeCasts_S4x16x768_S64x768 : S4x16x768.ShapeCasts S64x768
  inb_S64x768_S64x768_0_0 : ∀ a, (![0, 0] : Fin 2 → Nat) a + S64x768.size a ≤ S64x768.size a
  h_S64x768 : 0 < S64x768.numel
  shapeCasts_S64x1x768_S64x768 : S64x1x768.ShapeCasts S64x768
  bcast_S_S64x16 : S_.BroadcastsInDim S64x16 (![] : Fin 0 → Fin S64x16.rank)
  dot_S2048x768_S768x768_S2048x768_1_0_0_1_n_n_wf : DotDims.WF S2048x768 S768x768 S2048x768 [1] [0] [0] [1] [] []
  dot_S4x16x512_S4x512x768_S4x16x768_2_1_1_2_0_0_wf : DotDims.WF S4x16x512 S4x512x768 S4x16x768 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x768.size a ≤ S64x512x768.size a
  hwx0_0 : ∀ i : grid0.Coords, EltTy.bits .f32 = 32 ∨ (Rect.block (s := S64x512x768) S4x512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .bf16 = 32 ∨ (Rect.block (s := S768x768) S768x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x16x2.size a ≤ S64x16x2.size a
  hwx0_3 : ∀ i : grid0.Coords, EltTy.bits .i32 = 32 ∨ (Rect.block (s := S64x16x2) S4x16x2.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x1x768.size a ≤ S64x1x768.size a
  hwx0_4 : ∀ i : grid0.Coords, EltTy.bits .f32 = 32 ∨ (Rect.block (s := S64x1x768) S4x1x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x768.size a ≤ S1024x768.size a
  hwx0_5 : ∀ i : grid0.Coords, EltTy.bits .f32 = 32 ∨ (Rect.block (s := S1024x768) S64x768.size (cc0_transform_5 i) (hinb0_5 i)).WholeWords (EltTy.packing .f32)

variable [Facts₀]

def dot_S2048x768_S768x768_S2048x768_1_0_0_1_n_n : DotDims S2048x768 S768x768 S2048x768 where
  lhsContracting := [1]
  rhsContracting := [0]
  lhsNonContracting := [0]
  rhsNonContracting := [1]
  lhsBatch := []
  rhsBatch := []
  wf := dot_S2048x768_S768x768_S2048x768_1_0_0_1_n_n_wf
def dot_S4x16x512_S4x512x768_S4x16x768_2_1_1_2_0_0 : DotDims S4x16x512 S4x512x768 S4x16x768 where
  lhsContracting := [2]
  rhsContracting := [1]
  lhsNonContracting := [1]
  rhsNonContracting := [2]
  lhsBatch := [0]
  rhsBatch := [0]
  wf := dot_S4x16x512_S4x512x768_S4x16x768_2_1_1_2_0_0_wf

abbrev win0_0 : Pipeline.Window sig grid0 :=
  Pipeline.Window.ofSpec (Memref.whole main_arg0) S4x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S4x16x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S4x1x768.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S64x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x512x768 : Shape := ⟨3, ![64, 512, 768]⟩
abbrev S768x768 : Shape := ⟨2, ![768, 768]⟩
abbrev S768 : Shape := ⟨1, ![768]⟩
abbrev S64x512 : Shape := ⟨2, ![64, 512]⟩
abbrev S64x16x2 : Shape := ⟨3, ![64, 16, 2]⟩
abbrev S1x1x768 : Shape := ⟨3, ![1, 1, 768]⟩
abbrev S64x1x768 : Shape := ⟨3, ![64, 1, 768]⟩
abbrev S64x768 : Shape := ⟨2, ![64, 768]⟩
abbrev S512 : Shape := ⟨1, ![512]⟩
abbrev S64x16x1 : Shape := ⟨3, ![64, 16, 1]⟩
abbrev S64x16 : Shape := ⟨2, ![64, 16]⟩
abbrev S1x1x512 : Shape := ⟨3, ![1, 1, 512]⟩
abbrev S64x16x512 : Shape := ⟨3, ![64, 16, 512]⟩
abbrev S64x16x768 : Shape := ⟨3, ![64, 16, 768]⟩
abbrev S1024x768 : Shape := ⟨2, ![1024, 768]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S64x512x768, .f32⟩
  | .hbm, ⟨1, _⟩ => ⟨S768x768, .f32⟩
  | .hbm, ⟨2, _⟩ => ⟨S768, .f32⟩
  | .hbm, ⟨3, _⟩ => ⟨S64x512, .i32⟩
  | .hbm, ⟨4, _⟩ => ⟨S64x16x2, .i32⟩
  | .hbm, ⟨5, _⟩ => ⟨S64x512x768, .f32⟩
  | .hbm, ⟨6, _⟩ => ⟨S1x1x768, .f32⟩
  | .hbm, ⟨7, _⟩ => ⟨S64x512x768, .f32⟩
  | .hbm, ⟨8, _⟩ => ⟨S64x512x768, .f32⟩
  | .hbm, ⟨9, _⟩ => ⟨S64x512x768, .f32⟩
  | .hbm, ⟨10, _⟩ => ⟨S64x1x768, .f32⟩
  | .hbm, ⟨11, _⟩ => ⟨S64x768, .f32⟩
  | .hbm, ⟨12, _⟩ => ⟨S512, .i32⟩
  | .hbm, ⟨13, _⟩ => ⟨S64x16x1, .i32⟩
  | .hbm, ⟨14, _⟩ => ⟨S64x16, .i32⟩
  | .hbm, ⟨15, _⟩ => ⟨S64x16x1, .i32⟩
  | .hbm, ⟨16, _⟩ => ⟨S64x16x1, .i32⟩
  | .hbm, ⟨17, _⟩ => ⟨S64x16, .i32⟩
  | .hbm, ⟨18, _⟩ => ⟨S64x16x1, .i32⟩
  | .hbm, ⟨19, _⟩ => ⟨S1x1x512, .i32⟩
  | .hbm, ⟨20, _⟩ => ⟨S64x16x512, .i32⟩
  | .hbm, ⟨21, _⟩ => ⟨S64x16x512, .i32⟩
  | .hbm, ⟨22, _⟩ => ⟨S64x16x512, .i1⟩
  | .hbm, ⟨23, _⟩ => ⟨S1x1x512, .i32⟩
  | .hbm, ⟨24, _⟩ => ⟨S64x16x512, .i32⟩
  | .hbm, ⟨25, _⟩ => ⟨S64x16x512, .i32⟩
  | .hbm, ⟨26, _⟩ => ⟨S64x16x512, .i1⟩
  | .hbm, ⟨27, _⟩ => ⟨S64x16x512, .i1⟩
  | .hbm, ⟨28, _⟩ => ⟨S64x16x512, .f32⟩
  | .hbm, ⟨29, _⟩ => ⟨S64x16x768, .f32⟩
  | .hbm, ⟨30, _⟩ => ⟨S64x16x1, .i32⟩
  | .hbm, ⟨31, _⟩ => ⟨S64x16, .i32⟩
  | .hbm, ⟨32, _⟩ => ⟨S64x16x1, .i32⟩
  | .hbm, ⟨33, _⟩ => ⟨S64x16, .i32⟩
  | .hbm, ⟨34, _⟩ => ⟨S64x16, .i32⟩
  | .hbm, ⟨35, _⟩ => ⟨S64x16, .f32⟩
  | .hbm, ⟨36, _⟩ => ⟨S64x16x1, .f32⟩
  | .hbm, ⟨37, _⟩ => ⟨S64x16x768, .f32⟩
  | .hbm, ⟨38, _⟩ => ⟨S64x16x768, .f32⟩
  | .hbm, ⟨39, _⟩ => ⟨S1024x768, .f32⟩
  | .hbm, ⟨40, _⟩ => ⟨S_, .f32⟩
  | .hbm, ⟨41, _⟩ => ⟨S64x16, .f32⟩
  | _, _ => ⟨S64x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_cst : Ref sig .tc := ⟨.hbm, 40, rfl⟩
abbrev main_v35 : Ref sig .tc := ⟨.hbm, 41, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S64x512x768_0_1_2 : S1x1x768.BroadcastsInDim S64x512x768 (![0, 1, 2] : Fin 3 → Fin S64x512x768.rank)
  slices_S64x512x768_S64x1x768_0_0_0 : S64x512x768.Slices ![0, 0, 0] S64x1x768
  shapeCasts_S64x1x768_S64x768 : S64x1x768.ShapeCasts S64x768
  slices_S64x16x2_S64x16x1_0_0_0 : S64x16x2.Slices ![0, 0, 0] S64x16x1
  shapeCasts_S64x16x1_S64x16 : S64x16x1.ShapeCasts S64x16
  bcast_S64x16_S64x16x1_0_1 : S64x16.BroadcastsInDim S64x16x1 (![0, 1] : Fin 2 → Fin S64x16x1.rank)
  slices_S64x16x2_S64x16x1_0_0_1 : S64x16x2.Slices ![0, 0, 1] S64x16x1
  bcast_S512_S1x1x512_2 : S512.BroadcastsInDim S1x1x512 (![2] : Fin 1 → Fin S1x1x512.rank)
  bcast_S1x1x512_S64x16x512_0_1_2 : S1x1x512.BroadcastsInDim S64x16x512 (![0, 1, 2] : Fin 3 → Fin S64x16x512.rank)
  bcast_S64x16x1_S64x16x512_0_1_2 : S64x16x1.BroadcastsInDim S64x16x512 (![0, 1, 2] : Fin 3 → Fin S64x16x512.rank)
  bcast_S64x16x1_S64x16x768_0_1_2 : S64x16x1.BroadcastsInDim S64x16x768 (![0, 1, 2] : Fin 3 → Fin S64x16x768.rank)
  shapeCasts_S64x16x768_S1024x768 : S64x16x768.ShapeCasts S1024x768
  bcast_S_S64x16 : S_.BroadcastsInDim S64x16 (![] : Fin 0 → Fin S64x16.rank)
  dot_S64x512x768_S768x768_S64x512x768_2_1_01_0_n_n_wf : DotDims.WF S64x512x768 S768x768 S64x512x768 [2] [1] [0, 1] [0] [] []
  dot_S64x16x512_S64x512x768_S64x16x768_2_1_1_2_0_0_wf : DotDims.WF S64x16x512 S64x512x768 S64x16x768 [2] [1] [1] [2] [0] [0]

variable [Facts₀]

def dot_S64x512x768_S768x768_S64x512x768_2_1_01_0_n_n : DotDims S64x512x768 S768x768 S64x512x768 where
  lhsContracting := [2]
  rhsContracting := [1]
  lhsNonContracting := [0, 1]
  rhsNonContracting := [0]
  lhsBatch := []
  rhsBatch := []
  wf := dot_S64x512x768_S768x768_S64x512x768_2_1_01_0_n_n_wf
def dot_S64x16x512_S64x512x768_S64x16x768_2_1_1_2_0_0 : DotDims S64x16x512 S64x512x768 S64x16x768 where
  lhsContracting := [2]
  rhsContracting := [1]
  lhsNonContracting := [1]
  rhsNonContracting := [2]
  lhsBatch := [0]
  rhsBatch := [0]
  wf := dot_S64x16x512_S64x512x768_S64x16x768_2_1_1_2_0_0_wf

class Facts : Prop extends Facts₀ where

variable [Facts]
-- ==== Proof.Spec.lean ====
/-
  The pooled token features and their mean over each sentence span, as functions of the argument arrays.

  For a passage `n`, a token `l` and an output feature `o`, the pooled entry is
  `tanh (Σ_k hidden (n, l, k) · weight (o, k) + bias o)`: the dense layer with the weight stored `[out, in]`,
  followed by the hyperbolic tangent. The first result keeps token `0` of every passage. For a span `s` of passage
  `n` with the integer bounds `st = spans (n, s, 0)` and `en = spans (n, s, 1)`, token `l` counts when
  `st ≤ l < en` (signed comparison of 32-bit words), and the second result is the sum of the pooled entries of the
  counted tokens divided by `en - st` (the 32-bit difference read as a signed integer), laid out with row
  `n · 16 + s`. The third result is the zero array.
-/
import Idealize.ShloMosaic.PureOps.Ideal
import Idealize.ShloMosaic.PureOps.Ideal.Laws
import Idealize.ShloMosaic.Lib.ValueIdx

noncomputable section

namespace Cert.SpanPool

open Idealize.ShloMosaic Idealize.ShloMosaic.ValueIdx

/-- One entry of the dense layer followed by `tanh`: a row of features against a row of the weight, plus the bias. -/
def pooledOf (row wrow : Fin 768 → EReal) (bias : EReal) : EReal :=
  Ideal.tanh ((∑ k : Fin 768, row k * wrow k) + bias)

/-- Whether token `l` lies in the span `[st, en)`, as a one-bit word. -/
def inSpan (st en : BitVec 32) (l : Fin 512) : BitVec 1 :=
  IntOp.andi (IntOp.cmpi .sge (BitVec.ofNat 32 l.val) st) (IntOp.cmpi .slt (BitVec.ofNat 32 l.val) en)

/-- The mean over a span of a row of token values: the sum of the counted tokens' values divided by the span's
    length `en - st`. -/
def spanMeanOf (P : Fin 512 → EReal) (st en : BitVec 32) : EReal :=
  Ideal.div (∑ l : Fin 512, (((inSpan st en l).toNat : ℝ) : EReal) * P l) ((((IntOp.subi en st).toInt : ℝ)) : EReal)

/-- A one-bit word widened to 32 bits and read as a signed integer is the bit itself. -/
theorem widened_bit (x : BitVec 1) : (((x.setWidth 32).toInt : ℝ) : EReal) = ((x.toNat : ℝ) : EReal) := by
  have h : (x.setWidth 32).toInt = (x.toNat : ℤ) := by
    by_cases hx : x = 1#1
    · subst hx; decide
    · have h0 := eq_zero_of_ne_one hx; subst h0; decide
  rw [h, Int.cast_natCast]

variable (hs : (⟨3, ![64, 512, 768]⟩ : Shape).Idx → EReal) (w : (⟨2, ![768, 768]⟩ : Shape).Idx → EReal)
  (b : (⟨1, ![768]⟩ : Shape).Idx → EReal) (sp : (⟨3, ![64, 16, 2]⟩ : Shape).Idx → BitVec 32)

/-- The pooled entry of passage `n`, token `l`, feature `o`. -/
def pooledAt (n : Fin 64) (l : Fin 512) (o : Fin 768) : EReal :=
  pooledOf (fun k => hs (ix3 n l k)) (fun k => w (ix2 o k)) (b (ix1 o))

/-- The mean of the pooled entries of feature `o` over span `s` of passage `n`. -/
def spanMeanAt (n : Fin 64) (s : Fin 16) (o : Fin 768) : EReal :=
  spanMeanOf (fun l => pooledAt hs w b n l o) (sp (ix3 n s 0)) (sp (ix3 n s 1))

/-- The first result: token `0` of every passage. -/
def passages : (⟨2, ![64, 768]⟩ : Shape).Idx → EReal := fun i => pooledAt hs w b (i 0) 0 (i 1)

/-- The same with the token axis kept, of extent one: what the kernel writes before the host drops that axis. -/
def firstTokens : (⟨3, ![64, 1, 768]⟩ : Shape).Idx → EReal := fun i => pooledAt hs w b (i 0) 0 (i 2)

/-- The second result: row `n · 16 + s` holds the means over span `s` of passage `n`. -/
def sentences : (⟨2, ![1024, 768]⟩ : Shape).Idx → EReal := fun i =>
  spanMeanAt hs w b sp ⟨(i 0).val / 16, by have := idx2_lt0 i; omega⟩ ⟨(i 0).val % 16, by omega⟩ (i 1)

/-- Row `n · 16 + s` of the second result, by its passage and span. -/
theorem sentences_apply (q : Fin 1024) (o : Fin 768) (n : Fin 64) (s : Fin 16) (h : q.val = n.val * 16 + s.val) :
    sentences hs w b sp (ix2 q o) = spanMeanAt hs w b sp n s o := by
  have hs' := s.isLt
  unfold sentences
  have hn : (⟨((ix2 q o : (⟨2, ![1024, 768]⟩ : Shape).Idx) 0).val / 16, by have := q.isLt; show q.val / 16 < 64; omega⟩ : Fin 64) = n :=
    Fin.ext (by show q.val / 16 = n.val; omega)
  have hsp : (⟨((ix2 q o : (⟨2, ![1024, 768]⟩ : Shape).Idx) 0).val % 16, by omega⟩ : Fin 16) = s :=
    Fin.ext (by show q.val % 16 = s.val; omega)
  show spanMeanAt hs w b sp ⟨_, _⟩ ⟨_, _⟩ o = _
  rw [hn, hsp]

end Cert.SpanPool

end
-- ==== Proof.KernelReads.lean ====
/-
  The blocks a grid step loads, as entries of the argument arrays.

  Step `t` of the sixteen loads passages `4t … 4t + 3` of the hidden states and of the span bounds, the whole bias,
  and the whole weight as the host prepared it before the launch: transposed, so that its entry `(k, o)` is the
  argument's entry `(o, k)` (the change of format that follows the transpose keeps every extended real).
-/
import proofs.«147478_j34608846471536_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

namespace Cert.KernelIdeal.Reads

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- Where each window's block sits at grid step `t`: the passages' windows and both results' windows move with the
    step along their leading axis, the weight and the bias stay. -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ win0_5.index t (0 : Fin 2) = t.val ∧ win0_5.index t (1 : Fin 2) = 0 :=
  (by decide +kernel : ∀ t : Fin grid0.N, _)

/-- The weight as the region finds it: the argument transposed. -/
theorem weight_entry (c : Dev nD) (k o : Fin 768) :
    (V m c main_v1 : S768x768.Idx → EReal) (ix2 k o)
      = (m ((c : Thread nD τ).loc main_arg1) : S768x768.Idx → EReal) (ix2 o k) := by
  have e : (V m c main_v1 : S768x768.Idx → EReal)
      = (truncf (F := Ideal) .bf16 (transpose S768x768 [1, 0] (m ((c : Thread nD τ).loc main_arg1) : S768x768.Idx → EReal)
          transposes_S768x768_S768x768_1_0) bitsLt_bf16_f32 : S768x768.Idx → EReal) := by
    show StableHlo.after hostOps0 (fun b => m (c, b)) (Proc.devRef .tc main_v1) = _
    after_results
  rw [e]
  exact transpose_ix2_apply _ _ k o

/-- Entry `(bl, l, k)` of the hidden-state block at step `t` is passage `4t + bl`. -/
theorem hidden_block (c : Dev nD) (t : Fin cfg0.N) (bl : Fin 4) (l : Fin 512) (k : Fin 768) (n : Fin 64)
    (hn : n.val = t.val * 4 + bl.val) :
    (iblk m c 0 t : Vec Ideal S4x512x768 .f32) (ix3 bl l k)
      = (m ((c : Thread nD τ).loc main_arg0) : S64x512x768.Idx → EReal) (ix3 n l k) := by
  obtain ⟨e0, e1, e2, -⟩ := index_facts t
  unfold iblk
  rw [View.read_apply]
  show V m c main_arg0 _ = _
  rw [V_main_arg0]
  congr 1
  funext a
  apply Fin.ext
  match a with
  | ⟨0, _⟩ => show win0_0.index t 0 * 4 + 1 * bl.val = n.val; rw [e0, hn]; omega
  | ⟨1, _⟩ => show win0_0.index t 1 * 512 + 1 * l.val = l.val; rw [e1]; omega
  | ⟨2, _⟩ => show win0_0.index t 2 * 768 + 1 * k.val = k.val; rw [e2]; omega

/-- Entry `(k, o)` of the weight block at any step is the argument's entry `(o, k)`. -/
theorem weight_block (c : Dev nD) (t : Fin cfg0.N) (k o : Fin 768) :
    (iblk m c 1 t : Vec Ideal S768x768 .bf16) (ix2 k o)
      = (m ((c : Thread nD τ).loc main_arg1) : S768x768.Idx → EReal) (ix2 o k) := by
  obtain ⟨-, -, -, e0, e1, -⟩ := index_facts t
  unfold iblk
  rw [View.read_apply]
  show V m c main_v1 _ = _
  refine Eq.trans (congrArg (V m c main_v1 : S768x768.Idx → EReal) ?_) (weight_entry m c k o)
  funext a
  apply Fin.ext
  match a with
  | ⟨0, _⟩ => show win0_1.index t 0 * 768 + 1 * k.val = k.val; rw [e0]; omega
  | ⟨1, _⟩ => show win0_1.index t 1 * 768 + 1 * o.val = o.val; rw [e1]; omega

/-- Entry `o` of the bias block at any step is the argument's. -/
theorem bias_block (c : Dev nD) (t : Fin cfg0.N) (o : Fin 768) :
    (iblk m c 2 t : Vec Ideal S768 .f32) (ix1 o)
      = (m ((c : Thread nD τ).loc main_arg2) : S768.Idx → EReal) (ix1 o) := by
  obtain ⟨-, -, -, -, -, e0, -⟩ := index_facts t
  unfold iblk
  rw [View.read_apply]
  show V m c main_arg2 _ = _
  rw [V_main_arg2]
  congr 1
  funext a
  apply Fin.ext
  match a with
  | ⟨0, _⟩ => show win0_2.index t 0 * 768 + 1 * o.val = o.val; rw [e0]; omega

/-- Entry `(bl, s, e)` of the span block at step `t` is passage `4t + bl`. -/
theorem span_block (c : Dev nD) (t : Fin cfg0.N) (bl : Fin 4) (s : Fin 16) (e : Fin 2) (n : Fin 64)
    (hn : n.val = t.val * 4 + bl.val) :
    (iblk m c 3 t : Vec Ideal S4x16x2 .i32) (ix3 bl s e)
      = (m ((c : Thread nD τ).loc main_arg4) : S64x16x2.Idx → BitVec 32) (ix3 n s e) := by
  obtain ⟨-, -, -, -, -, -, e0, e1, e2, -⟩ := index_facts t
  unfold iblk
  rw [View.read_apply]
  show V m c main_arg4 _ = _
  rw [V_main_arg4]
  congr 1
  funext a
  apply Fin.ext
  match a with
  | ⟨0, _⟩ => show win0_3.index t 0 * 4 + 1 * bl.val = n.val; rw [e0, hn]; omega
  | ⟨1, _⟩ => show win0_3.index t 1 * 16 + 1 * s.val = s.val; rw [e1]; omega
  | ⟨2, _⟩ => show win0_3.index t 2 * 2 + 1 * e.val = e.val; rw [e2]; omega

end Cert.KernelIdeal.Reads

end
-- ==== Proof.LibMergeForms.lean ====
/-
  Reshapes that merge or split the two leading axes, and a bias row copied down the rows, read at an index by
  coordinates.

  A reshape keeps the row-major position of every entry. Merging the leading axes `a, b` of an array into one axis
  of extent `a · b` sends the entry `(r, k, …)` to row `r · b + k`; splitting undoes it. A vector `[k]` laid out as
  one row `[1, k]` and copied to every row of `[R, k]` reads, at `(q, o)`, the vector at `o`.
-/
import Idealize.ShloMosaic.Lib.Pipeline.Value
import Idealize.ShloMosaic.Lib.ValueIdx
import Idealize.ShloMosaic.Lib.ValueLayout

noncomputable section

namespace Cert.PointConv

open Idealize.ShloMosaic Idealize.ShloMosaic.ValueIdx

variable {α : Type}

/-- `[a, b, c]` reshaped to `[m, c]` (`m = a · b`): row `r · b + k` at column `o` is the entry `(r, k, o)`. -/
theorem shapeCast_abc_mc_apply {a b c m : Nat} (x : (⟨3, ![a, b, c]⟩ : Shape).Idx → α)
    (h : (⟨3, ![a, b, c]⟩ : Shape).ShapeCasts ⟨2, ![m, c]⟩) (r : Fin a) (k : Fin b) (o : Fin c) (q : Fin m)
    (hq : q.val = r.val * b + k.val) : shapeCast ⟨2, ![m, c]⟩ x h (ix2 q o) = x (ix3 r k o) :=
  shapeCast_apply x h _ _ (by
    rw [Shape.rowMajor_val_three, Shape.rowMajor_val_two]
    show (r.val * b + k.val) * c + o.val = q.val * c + o.val
    rw [hq])

/-- `[m, c]` reshaped to `[a, b, c]` (`m = a · b`): the entry `(r, k, o)` is row `r · b + k` at column `o`. -/
theorem shapeCast_mc_abc_apply {a b c m : Nat} (x : (⟨2, ![m, c]⟩ : Shape).Idx → α)
    (h : (⟨2, ![m, c]⟩ : Shape).ShapeCasts ⟨3, ![a, b, c]⟩) (r : Fin a) (k : Fin b) (o : Fin c) (q : Fin m)
    (hq : q.val = r.val * b + k.val) : shapeCast ⟨3, ![a, b, c]⟩ x h (ix3 r k o) = x (ix2 q o) :=
  shapeCast_apply x h _ _ (by
    rw [Shape.rowMajor_val_three, Shape.rowMajor_val_two]
    show q.val * c + o.val = (r.val * b + k.val) * c + o.val
    rw [hq])

/-- `[a, b, c, d]` reshaped to `[m, c, d]` (`m = a · b`): the entry `(r · b + k, i, j)` is the entry `(r, k, i, j)`. -/
theorem shapeCast_abcd_mcd_apply {a b c d m : Nat} (x : (⟨4, ![a, b, c, d]⟩ : Shape).Idx → α)
    (h : (⟨4, ![a, b, c, d]⟩ : Shape).ShapeCasts ⟨3, ![m, c, d]⟩) (r : Fin a) (k : Fin b) (i : Fin c) (j : Fin d) (q : Fin m)
    (hq : q.val = r.val * b + k.val) : shapeCast ⟨3, ![m, c, d]⟩ x h (ix3 q i j) = x (ix4 r k i j) :=
  shapeCast_apply x h _ _ (by
    rw [Shape.rowMajor_val_four, Shape.rowMajor_val_three]
    show ((r.val * b + k.val) * c + i.val) * d + j.val = (q.val * c + i.val) * d + j.val
    rw [hq])

/-- A vector `[k]` laid out as the row `[1, k]` and copied to every row of `[R, k]`: at `(q, o)` it is the vector at `o`. -/
theorem rowBias_apply {R k : Nat} (b : (⟨1, ![k]⟩ : Shape).Idx → α) (h1 : (⟨1, ![k]⟩ : Shape).ShapeCasts ⟨2, ![1, k]⟩)
    (h2 : (⟨2, ![1, k]⟩ : Shape).Broadcasts ⟨2, ![R, k]⟩) (q : Fin R) (o : Fin k) :
    broadcastTo ⟨2, ![R, k]⟩ (shapeCast ⟨2, ![1, k]⟩ b h1) h2 (ix2 q o) = b (ix1 o) :=
  (broadcastTo_1b_ab_apply _ h2 q o).trans (shapeCast_a_1a_apply b h1 0 o)

end Cert.PointConv

end
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.LibBatchedProduct.lean ====
/-
  A stack of matrix products read at an index, over the extended reals.

  For the dimension numbers of a product of a stack of `G` matrices `m × k` by a stack of `G` matrices `k × n` (the
  leading axis of both operands the batch axis, the left operand contracted on its last axis, the right one on its
  middle axis), a product accumulated into the zero array is, at `(g, a, b)`, the sum over `c : Fin k` of
  `A (g, a, c) * B (g, c, b)`: the zero accumulator contributes `0 + _`, and the contraction index, a one-axis
  multi-index, is re-indexed by its one coordinate. The statement quantifies over the well-formedness proof only, so
  it applies to any record with these six lists.
-/
import Idealize.ShloMosaic.PureOps.Ideal
import Idealize.ShloMosaic.PureOps.Ideal.Laws
import Idealize.ShloMosaic.Lib.ValueIdx

noncomputable section

namespace Cert.StackProduct

open Idealize.ShloMosaic Idealize.ShloMosaic.ValueIdx

/-- The dimension numbers of a stack of `G` products `m × k` by `k × n`, for any proof that they are well formed. -/
abbrev stackDims (G m k n : Nat)
    (wf : DotDims.WF (⟨3, ![G, m, k]⟩ : Shape) ⟨3, ![G, k, n]⟩ ⟨3, ![G, m, n]⟩ [2] [1] [1] [2] [0] [0]) :
    DotDims (⟨3, ![G, m, k]⟩ : Shape) ⟨3, ![G, k, n]⟩ ⟨3, ![G, m, n]⟩ :=
  { lhsContracting := [2], rhsContracting := [1], lhsNonContracting := [1], rhsNonContracting := [2],
    lhsBatch := [0], rhsBatch := [0], wf := wf }

theorem stackDims_contr_rank {G m k n : Nat} (wf) : (stackDims G m k n wf).contr.rank = 1 := rfl

theorem stackDims_contr_size {G m k n : Nat} (wf) :
    (stackDims G m k n wf).contr.size ⟨0, by rw [stackDims_contr_rank]; exact Nat.one_pos⟩ = k := rfl

/-- The contraction index of such a product is one coordinate in `Fin k`. -/
abbrev stackContr {G m k n : Nat} (wf) : (stackDims G m k n wf).contr.Idx ≃ Fin k :=
  contrEquiv1 (stackDims G m k n wf) k (stackDims_contr_rank wf) (stackDims_contr_size wf)

/-- The left operand's index at output `(g, a, b)` and contraction coordinate `c` is `(g, a, c)`. -/
theorem stackDims_lhsIdx {G m k n : Nat} (wf) (g : Fin G) (a : Fin m) (b : Fin n) (c : Fin k) :
    (stackDims G m k n wf).lhsIdx (ix3 g a b) ((stackContr wf).symm c) = ix3 g a c := by
  funext x
  apply Fin.ext
  match x with
  | ⟨0, h0⟩ =>
    unfold DotDims.lhsIdx
    rw [dif_pos (show (⟨0, h0⟩ : Fin (⟨3, ![G, m, k]⟩ : Shape).rank) ∈ (stackDims G m k n wf).lhsBatch from
      List.mem_singleton.mpr rfl)]
    rfl
  | ⟨1, h1⟩ =>
    unfold DotDims.lhsIdx
    rw [dif_neg (show ¬(⟨1, h1⟩ : Fin (⟨3, ![G, m, k]⟩ : Shape).rank) ∈ (stackDims G m k n wf).lhsBatch from
      fun h => Nat.one_ne_zero (congrArg Fin.val (List.mem_singleton.mp h))),
      dif_pos (show (⟨1, h1⟩ : Fin (⟨3, ![G, m, k]⟩ : Shape).rank) ∈ (stackDims G m k n wf).lhsNonContracting from
        List.mem_singleton.mpr rfl)]
    rfl
  | ⟨2, h2⟩ =>
    exact ((stackDims G m k n wf).lhsIdx_val_of_single (cl := ⟨2, h2⟩) rfl _ _).trans
      (contrEquiv1_symm_val (stackDims G m k n wf) k (stackDims_contr_rank wf) (stackDims_contr_size wf) c)

/-- The right operand's index there is `(g, c, b)`. -/
theorem stackDims_rhsIdx {G m k n : Nat} (wf) (g : Fin G) (a : Fin m) (b : Fin n) (c : Fin k) :
    (stackDims G m k n wf).rhsIdx (ix3 g a b) ((stackContr wf).symm c) = ix3 g c b := by
  funext x
  apply Fin.ext
  match x with
  | ⟨0, h0⟩ =>
    unfold DotDims.rhsIdx
    rw [dif_pos (show (⟨0, h0⟩ : Fin (⟨3, ![G, k, n]⟩ : Shape).rank) ∈ (stackDims G m k n wf).rhsBatch from
      List.mem_singleton.mpr rfl)]
    rfl
  | ⟨1, h1⟩ =>
    exact ((stackDims G m k n wf).rhsIdx_val_of_single (cr := ⟨1, h1⟩) rfl _ _).trans
      (contrEquiv1_symm_val (stackDims G m k n wf) k (stackDims_contr_rank wf) (stackDims_contr_size wf) c)
  | ⟨2, h2⟩ =>
    unfold DotDims.rhsIdx
    rw [dif_neg (show ¬(⟨2, h2⟩ : Fin (⟨3, ![G, k, n]⟩ : Shape).rank) ∈ (stackDims G m k n wf).rhsBatch from
      fun h => (Nat.succ_ne_zero 1) (congrArg Fin.val (List.mem_singleton.mp h))),
      dif_pos (show (⟨2, h2⟩ : Fin (⟨3, ![G, k, n]⟩ : Shape).rank) ∈ (stackDims G m k n wf).rhsNonContracting from
        List.mem_singleton.mpr rfl)]
    rfl

/-- A stack of products accumulated into the zero array, at `(g, a, b)`: the sum over the shared axis. -/
theorem stackMatmul_zero_apply {G m k n : Nat} {φ₁ φ₂ : FTy} (wf) (prec : Option ContractPrecision)
    (A : FVec Ideal (⟨3, ![G, m, k]⟩ : Shape) φ₁) (B : FVec Ideal (⟨3, ![G, k, n]⟩ : Shape) φ₂)
    (g : Fin G) (a : Fin m) (b : Fin n) :
    FloatOps.matmul (stackDims G m k n wf) prec A B (constant (F := Ideal) (⟨3, ![G, m, n]⟩ : Shape) .f32 0x00000000#32) (ix3 g a b)
      = ∑ c : Fin k, A (ix3 g a c) * B (ix3 g c b) := by
  rw [Ideal.matmul_constant_zero_apply, ← Equiv.sum_comp (stackContr wf).symm]
  refine Finset.sum_congr rfl fun c _ => ?_
  rw [stackDims_lhsIdx, stackDims_rhsIdx]

end Cert.StackProduct

end
-- ==== Proof.LibLastAxisForms.lean ====
/-
  A column cut from the last axis of a rank-3 array, and a trailing unit axis copied along, read at an index by
  coordinates.

  Cutting the one column `e` out of the last axis of `[a, b, n]` gives `[a, b, 1]`, whose entry `(i, j, 0)` is the
  operand's entry `(i, j, e)`. Copying `[a, b, 1]` along its unit axis to `[a, b, c]` gives an array whose entry
  `(i, j, l)` is the operand's entry `(i, j, 0)`, whatever `l`. An index array that counts along the last axis of
  `[a, b, c]` holds `l` at `(i, j, l)`.
-/
import Idealize.ShloMosaic.Lib.Pipeline.Value
import Idealize.ShloMosaic.Lib.ValueIdx

noncomputable section

namespace Cert.LastAxis

open Idealize.ShloMosaic Idealize.ShloMosaic.ValueIdx

variable {α : Type}

/-- The column `e` of the last axis of `[a, b, n]`, as `[a, b, 1]`: at `(i, j, 0)` it is the entry `(i, j, e)`. -/
theorem column_apply {a b n : Nat} (e : Fin n) (X : (⟨3, ![a, b, n]⟩ : Shape).Idx → α)
    (h : (⟨3, ![a, b, n]⟩ : Shape).Slices ![0, 0, e.val] ⟨3, ![a, b, 1]⟩) (i : Fin a) (j : Fin b) (z : Fin 1) :
    extractStridedSlice ⟨3, ![a, b, 1]⟩ ![0, 0, e.val] X h (ix3 i j z) = X (ix3 i j e) :=
  extractStridedSlice_apply _ X h _ _ fun x => match x with
    | ⟨0, _⟩ => by show i.val = 0 + i.val; omega
    | ⟨1, _⟩ => by show j.val = 0 + j.val; omega
    | ⟨2, _⟩ => by show e.val = e.val + z.val; have := z.isLt; omega

/-- `[a, b, 1]` copied along its unit axis to `[a, b, c]` (`1 < c`): at `(i, j, l)` it is the entry `(i, j, 0)`. -/
theorem along_apply {a b c : Nat} (X : (⟨3, ![a, b, 1]⟩ : Shape).Idx → α)
    (h : (⟨3, ![a, b, 1]⟩ : Shape).Broadcasts ⟨3, ![a, b, c]⟩) (i : Fin a) (j : Fin b) (l : Fin c)
    (ha : a ≠ 1) (hb : b ≠ 1) :
    broadcastTo ⟨3, ![a, b, c]⟩ X h (ix3 i j l) = X (ix3 i j 0) :=
  broadcastTo_apply X h _ _ fun x => match x with
    | ⟨0, _⟩ => by show i.val = if a = 1 then 0 else i.val; rw [if_neg ha]
    | ⟨1, _⟩ => by show j.val = if b = 1 then 0 else j.val; rw [if_neg hb]
    | ⟨2, _⟩ => by show (0 : Fin 1).val = if (1 : Nat) = 1 then 0 else l.val; rw [if_pos rfl]; rfl

/-- An index array counting along the last axis of `[a, b, c]` holds the last coordinate. -/
theorem count_last_apply (κ : Kind) {a b c w : Nat} (h : (⟨3, ![a, b, c]⟩ : Shape).Iotas κ w [2])
    (i : Fin a) (j : Fin b) (l : Fin c) :
    iota κ (⟨3, ![a, b, c]⟩ : Shape) w [2] h (ix3 i j l) = BitVec.ofNat w l.val :=
  iota_single_apply κ _ w 2 h _

end Cert.LastAxis

end
-- ==== Proof.KernelBlock.lean ====
/-
  What one grid step of the kernel computes, entry by entry, from the blocks it loads.

  A step loads four passages `x0 : [4, 512, 768]`, the transposed weight `x1 : [768, 768]` (entry `(k, o)`), the bias
  `x2 : [768]` and the four passages' span bounds `x3 : [4, 16, 2]`. It flattens the passages to `2048` rows (row
  `bl · 512 + l`), multiplies by the weight, adds the bias row, applies `tanh` and splits the rows again: the pooled
  block, whose entry `(bl, l, o)` is `tanh (Σ_k x0 (bl, l, k) · x1 (k, o) + x2 o)`. Its first store keeps token `0`.
  For the second store it builds, per passage and span, the 0/1 row of the tokens inside the span (a token counter
  compared with the two bounds), multiplies that row into the pooled block passage by passage, divides by the span
  length and merges passage and span into one row index `bl · 16 + s`.
-/
import proofs.«147478_j34608846471536_2_alg».proof.Proof.Gen.KernelIdeal.Skeleton
import proofs.«147478_j34608846471536_2_alg».proof.Proof.LibMergeForms
import proofs.«147478_j34608846471536_2_alg».proof.Proof.LibPlainMatmul
import proofs.«147478_j34608846471536_2_alg».proof.Proof.LibBatchedProduct
import proofs.«147478_j34608846471536_2_alg».proof.Proof.LibLastAxisForms
import proofs.«147478_j34608846471536_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Idealize.ShloMosaic Idealize.ShloMosaic.ValueIdx Cert.KernelIdeal Cert.KernelIdeal.Gen Cert.SpanPool

/-- The pooled block at `(bl, l, o)`: the dense layer of row `(bl, l)` of the passages, then `tanh`. -/
theorem pooled_block (x0 : Vec Ideal S4x512x768 .f32) (x1 : Vec Ideal S768x768 .bf16) (x2 : Vec Ideal S768 .f32)
    (bl : Fin 4) (l : Fin 512) (o : Fin 768) :
    k0_pay1 x0 x1 x2 (ix3 bl l o) = pooledOf (fun k => x0 (ix3 bl l k)) (fun k => x1 (ix2 k o)) (x2 (ix1 o)) := by
  have hbl := bl.isLt
  have hl := l.isLt
  unfold k0_pay1 pooledOf
  rw [Cert.PointConv.shapeCast_mc_abc_apply _ _ bl l o ⟨bl.val * 512 + l.val, by omega⟩ rfl]
  show Ideal.tanh (_ + _) = _
  refine congrArg Ideal.tanh (congrArg₂ (· + ·) ?_ ?_)
  · refine (Cert.PointConv.plainMatmul_zero_apply (R := 2048) (n := 768) (k := 768) _ none _ _ _ o).trans ?_
    refine Finset.sum_congr rfl fun k _ => congrArg₂ (· * ·) ?_ ?_
    · exact Cert.PointConv.shapeCast_abc_mc_apply x0 _ bl l k _ rfl
    · exact congrFun (shapeCast_self x1 _) _
  · exact Cert.PointConv.rowBias_apply x2 _ _ _ o

/-- The first store: token `0` of the pooled block. -/
theorem first_token_block (x0 : Vec Ideal S4x512x768 .f32) (x1 : Vec Ideal S768x768 .bf16) (x2 : Vec Ideal S768 .f32)
    (bl : Fin 4) (z : Fin 1) (o : Fin 768) :
    k0_pay2 x0 x1 x2 (ix3 bl z o) = k0_pay1 x0 x1 x2 (ix3 bl 0 o) := by
  unfold k0_pay2
  exact extractStridedSlice_apply _ _ _ _ _ fun x => match x with
    | ⟨0, _⟩ => by show bl.val = 0 + bl.val; omega
    | ⟨1, _⟩ => by show (0 : Fin 512).val = 0 + z.val; have := z.isLt; show 0 = 0 + z.val; omega
    | ⟨2, _⟩ => by show o.val = 0 + o.val; omega

/-- The second store at row `bl · 16 + s`: the mean of the pooled block's column over the span. -/
theorem span_mean_block (x0 : Vec Ideal S4x512x768 .f32) (x1 : Vec Ideal S768x768 .bf16) (x2 : Vec Ideal S768 .f32)
    (x3 : Vec Ideal S4x16x2 .i32) (bl : Fin 4) (s : Fin 16) (o : Fin 768) (q : Fin 64) (hq : q.val = bl.val * 16 + s.val) :
    k0_pay3 x0 x1 x2 x3 (ix2 q o)
      = spanMeanOf (fun l => k0_pay1 x0 x1 x2 (ix3 bl l o)) (x3 (ix3 bl s 0)) (x3 (ix3 bl s 1)) := by
  unfold k0_pay3 spanMeanOf
  rw [Cert.PointConv.shapeCast_abc_mc_apply _ _ bl s o q hq]
  show Ideal.div _ _ = _
  have e0 : ∀ z : Fin 1, extractStridedSlice S4x16x1 ![0, 0, 0] x3 slices_S4x16x2_o0_0_0_S4x16x1 (ix3 bl s z) = x3 (ix3 bl s 0) :=
    fun z => Cert.LastAxis.column_apply (a := 4) (b := 16) (n := 2) 0 x3 _ bl s z
  have e1 : ∀ z : Fin 1, extractStridedSlice S4x16x1 ![0, 0, 1] x3 slices_S4x16x2_o0_0_1_S4x16x1 (ix3 bl s z) = x3 (ix3 bl s 1) :=
    fun z => Cert.LastAxis.column_apply (a := 4) (b := 16) (n := 2) 1 x3 _ bl s z
  refine congrArg₂ Ideal.div ?_ ?_
  · refine (Cert.StackProduct.stackMatmul_zero_apply (G := 4) (m := 16) (k := 512) (n := 768) _ (some .fp32) _ _ bl s o).trans ?_
    refine Finset.sum_congr rfl fun l _ => congrArg₂ (· * ·) ?_ rfl
    show FloatOps.sitofp .f32 ((IntOp.andi (IntOp.cmpi .sge _ _) (IntOp.cmpi .slt _ _)).setWidth 32) = _
    refine (widened_bit _).trans ?_
    unfold inSpan
    rw [Cert.LastAxis.count_last_apply, Cert.LastAxis.along_apply _ _ bl s l (by decide) (by decide),
      Cert.LastAxis.along_apply _ _ bl s l (by decide) (by decide), e0, e1]
  · refine (Cert.LastAxis.along_apply _ _ bl s o (by decide) (by decide)).trans ?_
    show ((((IntOp.subi _ _).toInt : ℝ)) : EReal) = _
    rw [e0, e1]

end Cert.KernelIdeal.Block

end
-- ==== Proof.KernelArrays.lean ====
/-
  From blocks to arrays: what the two result arrays of the kernel hold after all sixteen grid steps.

  Step `t` writes back rows `64t … 64t + 63` of the span means (row `bl · 16 + s` of the step is span `s` of passage
  `4t + bl`, that is row `(4t + bl) · 16 + s` of the array) and passages `4t … 4t + 3` of the first-token array.
  Each written block is the matching block of one whole-array function of the arguments, and the sixteen blocks
  cover each array, so after the run each array is that function.
-/
import proofs.«147478_j34608846471536_2_alg».proof.Proof.Gen.KernelIdeal.Frame
import proofs.«147478_j34608846471536_2_alg».proof.Proof.KernelReads
import proofs.«147478_j34608846471536_2_alg».proof.Proof.KernelBlock
import proofs.«147478_j34608846471536_2_alg».proof.Proof.Spec
import Idealize.ShloMosaic.Lib.Pipeline.Value
import Idealize.ShloMosaic.Lib.ValueIdx

noncomputable section

namespace Cert.KernelIdeal.Arrays

open Cert.KernelIdeal Cert.KernelIdeal.Gen Idealize.ShloMosaic Idealize.ShloMosaic.TcCoe Idealize.SL.Sem
open Idealize.ShloMosaic.ValueIdx Cert.SpanPool Cert.KernelIdeal.Reads Cert.KernelIdeal.Block
open Idealize.ShloMosaic.Pipeline (Dat)

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The arguments as the specification takes them. -/
abbrev hidden (c : Dev nD) : (⟨3, ![64, 512, 768]⟩ : Shape).Idx → EReal := m ((c : Thread nD τ).loc main_arg0)
abbrev weight (c : Dev nD) : (⟨2, ![768, 768]⟩ : Shape).Idx → EReal := m ((c : Thread nD τ).loc main_arg1)
abbrev bias (c : Dev nD) : (⟨1, ![768]⟩ : Shape).Idx → EReal := m ((c : Thread nD τ).loc main_arg2)
abbrev spans (c : Dev nD) : (⟨3, ![64, 16, 2]⟩ : Shape).Idx → BitVec 32 := m ((c : Thread nD τ).loc main_arg4)

theorem steps : cfg0.N = 16 := N_0

/-- The pooled block of step `t` at `(bl, l, o)` is the pooled entry of passage `4t + bl`. -/
theorem pooled_step (c : Dev nD) (t : Fin cfg0.N) (bl : Fin 4) (l : Fin 512) (o : Fin 768) (n : Fin 64)
    (hn : n.val = t.val * 4 + bl.val) :
    k0_pay1 (iblk m c 0 t) (iblk m c 1 t) (iblk m c 2 t) (ix3 bl l o)
      = pooledAt (hidden m c) (weight m c) (bias m c) n l o := by
  refine (pooled_block (iblk m c 0 t) (iblk m c 1 t) (iblk m c 2 t) bl l o).trans ?_
  unfold pooledAt
  exact congr (congr (congrArg pooledOf (funext fun k => hidden_block m c t bl l k n hn))
    (funext fun k => weight_block m c t k o)) (bias_block m c t o)

/-! ## The span means -/

/-- What step `t` writes back to the span-mean array is its block of the specification. -/
theorem flushed_means (c : Dev nD) (t : Fin cfg0.N) :
    (dats m 0 c).flushed 5 t
      = ((cfg0.win 5).blk t).view.read (Elt Ideal) (sentences (hidden m c) (weight m c) (bias m c) (spans m c)) := by
  show (cfg0.win 5).cut (grid0.coords t) ((dats m 0 c).after 5 t) = _
  rw [after0_5]
  unfold out0_5
  rw [View.canon_unit_zero hz2]
  simp only [View.ld_unit_zero (S := S4x512x768) hz3, View.ld_unit_zero (S := S768x768) hz2,
    View.ld_unit_zero (S := S768) hz1, View.ld_unit_zero (S := S4x16x2) hz3]
  have ht : t.val < 16 := lt_of_lt_of_eq t.isLt steps
  obtain ⟨-, -, -, -, -, -, -, -, -, -, -, -, e0, e1⟩ := index_facts t
  have key : ∀ j : S64x768.Idx,
      k0_pay3 (iblk m c 0 t) (iblk m c 1 t) (iblk m c 2 t) (iblk m c 3 t) j
        = sentences (hidden m c) (weight m c) (bias m c) (spans m c) (((cfg0.win 5).blk t).view.emb j) := by
    intro j
    obtain ⟨q, o, rfl⟩ : ∃ (q : Fin 64) (o : Fin 768), j = ix2 q o := ⟨j 0, j 1, eq_ix2 j⟩
    have hq : q.val < 64 := q.isLt
    have hemb : ((cfg0.win 5).blk t).view.emb (ix2 q o) = ix2 (⟨t.val * 64 + q.val, by omega⟩ : Fin 1024) o := by
      funext a
      apply Fin.ext
      match a with
      | ⟨0, _⟩ => show win0_5.index t 0 * 64 + 1 * q.val = t.val * 64 + q.val; rw [e0]; omega
      | ⟨1, _⟩ => show win0_5.index t 1 * 768 + 1 * o.val = o.val; rw [e1]; omega
    rw [hemb, sentences_apply _ _ _ _ (⟨t.val * 64 + q.val, by omega⟩ : Fin 1024) o
      (⟨t.val * 4 + q.val / 16, by omega⟩ : Fin 64) (⟨q.val % 16, by omega⟩ : Fin 16)
      (by show t.val * 64 + q.val = (t.val * 4 + q.val / 16) * 16 + q.val % 16; omega)]
    refine (span_mean_block (iblk m c 0 t) (iblk m c 1 t) (iblk m c 2 t) (iblk m c 3 t)
      (⟨q.val / 16, by omega⟩ : Fin 4) (⟨q.val % 16, by omega⟩ : Fin 16) o q
      (by show q.val = q.val / 16 * 16 + q.val % 16; omega)).trans ?_
    unfold spanMeanAt
    rw [span_block m c t _ _ 0 (⟨t.val * 4 + q.val / 16, by omega⟩ : Fin 64) rfl,
      span_block m c t _ _ 1 (⟨t.val * 4 + q.val / 16, by omega⟩ : Fin 64) rfl]
    exact congrArg (fun P => spanMeanOf P _ _) (funext fun l => pooled_step m c t _ l o _ rfl)
  funext j
  exact key j

/-- An index of the span-mean array is in step `t`'s block iff each coordinate is in the block's range. -/
theorem mem_means (t : Fin cfg0.N) (i : S1024x768.Idx) :
    i ∈ ((cfg0.win 5).blk t).view.set ↔ ∀ a : Fin 2, win0_5.index t a * S64x768.size a ≤ (i a).val ∧ (i a).val < win0_5.index t a * S64x768.size a + S64x768.size a := by
  show i ∈ ((View.whole main_v2_1).slice (win0_5.rect t)).set ↔ _
  rw [View.set_slice_whole, Rect.mem_set_unit]
  exact Iff.rfl

/-- Row `r` of the span-mean array is written by step `r / 64`. -/
theorem cover_means (i : S1024x768.Idx) :
    ∃ t : Fin cfg0.N, (cfg0.win 5).flush t = true ∧ i ∈ ((cfg0.win 5).blk t).view.set := by
  have h0 : (i 0).val < 1024 := idx2_lt0 i
  have h1 : (i 1).val < 768 := idx2_lt1 i
  obtain ⟨t, ht⟩ : ∃ t : Fin cfg0.N, t.val = (i 0).val / 64 := ⟨⟨(i 0).val / 64, by rw [steps]; omega⟩, rfl⟩
  obtain ⟨-, -, -, -, -, -, -, -, -, -, -, -, e0, e1⟩ := index_facts t
  refine ⟨t, flush0_5 t, ?_⟩
  rw [mem_means]
  intro a
  match a with
  | ⟨0, _⟩ => show win0_5.index t 0 * 64 ≤ (i 0).val ∧ (i 0).val < win0_5.index t 0 * 64 + 64; rw [e0, ht]; omega
  | ⟨1, _⟩ => show win0_5.index t 1 * 768 ≤ (i 1).val ∧ (i 1).val < win0_5.index t 1 * 768 + 768; rw [e1]; omega

/-- The span-mean array after the run. -/
theorem final_means (c : Dev nD) :
    (dats m 0 c).arrAt 5 cfg0.N = sentences (hidden m c) (weight m c) (bias m c) (spans m c) :=
  (dats m 0 c).arrAt_eq_of_cover 5 _ (fun t _ => flushed_means m c t) cover_means

/-! ## The first tokens -/

/-- What step `t` writes back to the first-token array is its block of the specification. -/
theorem flushed_first (c : Dev nD) (t : Fin cfg0.N) :
    (dats m 0 c).flushed 4 t
      = ((cfg0.win 4).blk t).view.read (Elt Ideal) (firstTokens (hidden m c) (weight m c) (bias m c)) := by
  show (cfg0.win 4).cut (grid0.coords t) ((dats m 0 c).after 4 t) = _
  rw [after0_4]
  unfold out0_4
  rw [View.canon_unit_zero hz3]
  simp only [View.ld_unit_zero (S := S4x512x768) hz3, View.ld_unit_zero (S := S768x768) hz2,
    View.ld_unit_zero (S := S768) hz1]
  have ht : t.val < 16 := lt_of_lt_of_eq t.isLt steps
  obtain ⟨-, -, -, -, -, -, -, -, -, e0, e1, e2, -⟩ := index_facts t
  have key : ∀ j : S4x1x768.Idx,
      k0_pay2 (iblk m c 0 t) (iblk m c 1 t) (iblk m c 2 t) j
        = firstTokens (hidden m c) (weight m c) (bias m c) (((cfg0.win 4).blk t).view.emb j) := by
    intro j
    obtain ⟨bl, z, o, rfl⟩ : ∃ (bl : Fin 4) (z : Fin 1) (o : Fin 768), j = ix3 bl z o := ⟨j 0, j 1, j 2, eq_ix3 j⟩
    have hbl : bl.val < 4 := bl.isLt
    have hemb : ((cfg0.win 4).blk t).view.emb (ix3 bl z o) = ix3 (⟨t.val * 4 + bl.val, by omega⟩ : Fin 64) z o := by
      funext a
      apply Fin.ext
      match a with
      | ⟨0, _⟩ => show win0_4.index t 0 * 4 + 1 * bl.val = t.val * 4 + bl.val; rw [e0]; omega
      | ⟨1, _⟩ => show win0_4.index t 1 * 1 + 1 * z.val = z.val; rw [e1]; omega
      | ⟨2, _⟩ => show win0_4.index t 2 * 768 + 1 * o.val = o.val; rw [e2]; omega
    rw [hemb]
    refine (first_token_block (iblk m c 0 t) (iblk m c 1 t) (iblk m c 2 t) bl z o).trans ?_
    exact pooled_step m c t bl 0 o _ rfl
  funext j
  exact key j

/-- An index of the first-token array is in step `t`'s block iff each coordinate is in the block's range. -/
theorem mem_first (t : Fin cfg0.N) (i : S64x1x768.Idx) :
    i ∈ ((cfg0.win 4).blk t).view.set ↔ ∀ a : Fin 3, win0_4.index t a * S4x1x768.size a ≤ (i a).val ∧ (i a).val < win0_4.index t a * S4x1x768.size a + S4x1x768.size a := by
  show i ∈ ((View.whole main_v2_0).slice (win0_4.rect t)).set ↔ _
  rw [View.set_slice_whole, Rect.mem_set_unit]
  exact Iff.rfl

/-- Passage `n` of the first-token array is written by step `n / 4`. -/
theorem cover_first (i : S64x1x768.Idx) :
    ∃ t : Fin cfg0.N, (cfg0.win 4).flush t = true ∧ i ∈ ((cfg0.win 4).blk t).view.set := by
  have h0 : (i 0).val < 64 := (i 0).isLt
  have h1 : (i 1).val < 1 := (i 1).isLt
  have h2 : (i 2).val < 768 := (i 2).isLt
  obtain ⟨t, ht⟩ : ∃ t : Fin cfg0.N, t.val = (i 0).val / 4 := ⟨⟨(i 0).val / 4, by rw [steps]; omega⟩, rfl⟩
  obtain ⟨-, -, -, -, -, -, -, -, -, e0, e1, e2, -⟩ := index_facts t
  refine ⟨t, flush0_4 t, ?_⟩
  rw [mem_first]
  intro a
  match a with
  | ⟨0, _⟩ => show win0_4.index t 0 * 4 ≤ (i 0).val ∧ (i 0).val < win0_4.index t 0 * 4 + 4; rw [e0, ht]; omega
  | ⟨1, _⟩ => show win0_4.index t 1 * 1 ≤ (i 1).val ∧ (i 1).val < win0_4.index t 1 * 1 + 1; rw [e1]; omega
  | ⟨2, _⟩ => show win0_4.index t 2 * 768 ≤ (i 2).val ∧ (i 2).val < win0_4.index t 2 * 768 + 768; rw [e2]; omega

/-- The first-token array after the run. -/
theorem final_first (c : Dev nD) :
    (dats m 0 c).arrAt 4 cfg0.N = firstTokens (hidden m c) (weight m c) (bias m c) :=
  (dats m 0 c).arrAt_eq_of_cover 4 _ (fun t _ => flushed_first m c t) cover_first

end Cert.KernelIdeal.Arrays

end
-- ==== Proof.KernelRun.lean ====
/-
  The kernel's run, read: after the launch the host drops the unit token axis of the first-token array and fills
  the sentence mask with zeros; the span-mean array is returned as the launch left it.
-/
import proofs.«147478_j34608846471536_2_alg».proof.Proof.Gen.KernelIdeal.Frame
import proofs.«147478_j34608846471536_2_alg».proof.Proof.KernelArrays
import proofs.«147478_j34608846471536_2_alg».proof.Proof.Spec
import Idealize.ShloMosaic.Lib.Pipeline.Value
import Idealize.ShloMosaic.Lib.ValueIdx
import Idealize.ShloMosaic.Lib.StableHlo.Run
import Idealize.ShloMosaic.Lib.Tactic
import Idealize.ShloMosaic.PureOps.Ideal.Laws

noncomputable section

namespace Cert.KernelIdeal.Run

open Cert.KernelIdeal Cert.KernelIdeal.Gen Idealize.ShloMosaic Idealize.ShloMosaic.TcCoe Idealize.SL.Sem
open Idealize.ShloMosaic.ValueIdx Cert.SpanPool Cert.KernelIdeal.Arrays
open Idealize.ShloMosaic.Pipeline (Dat)

variable (m : (ℓ : Loc nD τ sig) → Buf (Elt Ideal) ℓ) (ρ : Dev nD → PrngReg)

/-- The first-token array with its unit axis dropped is the first result of the specification. -/
theorem dropped_axis (hs : (⟨3, ![64, 512, 768]⟩ : Shape).Idx → EReal) (w : (⟨2, ![768, 768]⟩ : Shape).Idx → EReal)
    (b : (⟨1, ![768]⟩ : Shape).Idx → EReal) :
    shapeCast S64x768 (firstTokens hs w b) shapeCasts_S64x1x768_S64x768 = passages hs w b := by
  funext i
  have h0 : (i 0).val < 64 := idx2_lt0 i
  have h1 : (i 1).val < 768 := idx2_lt1 i
  refine (shapeCast_apply (firstTokens hs w b) shapeCasts_S64x1x768_S64x768 i (ix3 (i 0) 0 (i 1)) ?_).trans rfl
  rw [Shape.rowMajor_val_three, Shape.rowMajor_val_two]
  show ((i 0).val * 1 + 0) * 768 + (i 1).val = (i 0).val * 768 + (i 1).val
  omega

/-- After the lines that follow the launch, the first result is the specification's. -/
theorem tail_passages (c : Dev nD) :
    Pipeline.afterTail₀ cfgs (dats m) 0 (V0 m) [hostOps1] c main_v3
      = passages (hidden m c) (weight m c) (bias m c) := by
  unfold Pipeline.afterTail₀
  show StableHlo.after hostOps1 _ (Proc.devRef .tc main_v3) = _
  after_results
  funext i
  show shapeCast S64x768 (Pipeline.withArrays (cfgs 0).spec c (V0 m c) (fun w => (dats m 0 c).arrAt w (cfgs 0).N)
    (Proc.tc.devRef main_v2_0)) shapeCasts_S64x1x768_S64x768 i = _
  rw [show Pipeline.withArrays (cfgs 0).spec c (V0 m c) (fun w => (dats m 0 c).arrAt w (cfgs 0).N) (Proc.tc.devRef main_v2_0)
      = firstTokens (hidden m c) (weight m c) (bias m c) from
    (Pipeline.withArrays_arr spec0 launch0.win.arr_inj c _ _ 4).trans (final_first m c)]
  exact congrFun (dropped_axis _ _ _) i

/-- After the lines that follow the launch, the third result is the zero array. -/
theorem tail_zeros (c : Dev nD) :
    Pipeline.afterTail₀ cfgs (dats m) 0 (V0 m) [hostOps1] c main_v4 = (fun _ => (0 : EReal)) := by
  unfold Pipeline.afterTail₀
  show StableHlo.after hostOps1 _ (Proc.devRef .tc main_v4) = _
  after_results
  funext i
  exact Ideal.ofBits_zero_f32

/-- The run of the idealized kernel, read: every weakly fair execution ends with the three results at the
    specification's functions of the arguments, and the arguments unchanged. -/
theorem run : θ_run defs (onTc (τ := τ) (main (F := Ideal))) ⟨m, fun _ => 0, ρ⟩ fun r => ∀ c : Dev nD,
      r.2.mem ((c.tc : Thread nD τ).loc main_v3) = passages (hidden m c) (weight m c) (bias m c)
      ∧ r.2.mem ((c.tc : Thread nD τ).loc main_v2_1) = sentences (hidden m c) (weight m c) (bias m c) (spans m c)
      ∧ r.2.mem ((c.tc : Thread nD τ).loc main_v4) = (fun _ => (0 : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨
      ((h c).2 main_v3 (Pipeline.mem_restRefs_of main_v3 (by decide) (by decide))).trans (tail_passages m c),
      ((h c).1 5).trans (final_means m c),
      ((h c).2 main_v4 (Pipeline.mem_restRefs_of main_v4 (by decide) (by decide))).trans (tail_zeros m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 3).trans (((dats m 0 c).arrAt_in 3 rfl _).trans ((A_eq m c 3).trans (V_main_arg4 m c)))⟩)
    (run_main m ρ)

end Cert.KernelIdeal.Run

end
-- ==== Proof.RefIsSpec.lean ====
/-
  The reference computes the specification.

  The reference contracts the hidden states `[64, 512, 768]` with the weight `[768, 768]` over the weight's second
  axis, adds the bias copied along passages and tokens, applies `tanh`, keeps token `0` for the first result, and
  for the second result contracts the 0/1 span rows `[64, 16, 512]` with the pooled array passage by passage,
  divides by the span lengths copied along the features and merges passage and span into one row index. Read at an
  index, stage by stage, each of these is the specification's entry.
-/
import proofs.«147478_j34608846471536_2_alg».proof.Proof.Gen.ReferenceIdeal.Read
import proofs.«147478_j34608846471536_2_alg».proof.Proof.Spec

noncomputable section

namespace Cert.ReferenceIdeal.RefValue

open Idealize.ShloMosaic Idealize.ShloMosaic.ValueIdx Cert.ReferenceIdeal Cert.ReferenceIdeal.Read Cert.SpanPool

variable (x0 : (⟨S64x512x768, .f32⟩ : BufTy).Contents (Elt Ideal)) (x1 : (⟨S768x768, .f32⟩ : BufTy).Contents (Elt Ideal))
  (x2 : (⟨S768, .f32⟩ : BufTy).Contents (Elt Ideal)) (x4 : (⟨S64x16x2, .i32⟩ : BufTy).Contents (Elt Ideal))

/-- The reference's pooled array at `(n, l, o)`. -/
theorem pooled_ref (n : Fin 64) (l : Fin 512) (o : Fin 768) :
    val_main_v4 (F := Ideal) x0 x1 x2 (ix3 n l o) = pooledAt x0 x1 x2 n l o := by
  rw [val_main_v4_apply, val_main_v3_apply, val_main_v0_apply, val_main_v2_apply, val_main_v1_apply]
  unfold pooledAt pooledOf
  show Ideal.tanh (_ + _) = _
  refine congrArg Ideal.tanh (congrArg₂ (· + ·) (Finset.sum_congr rfl fun k _ => congrArg₂ (· * ·) ?_ ?_) ?_)
  · exact congrArg x0 (funext fun a => Fin.ext (by match a with | ⟨0, _⟩ => rfl | ⟨1, _⟩ => rfl | ⟨2, _⟩ => rfl))
  · exact congrArg x1 (funext fun a => Fin.ext (by match a with | ⟨0, _⟩ => rfl | ⟨1, _⟩ => rfl))
  · exact congrArg x2 (funext fun a => Fin.ext (by match a with | ⟨0, _⟩ => rfl))

/-- The reference's first result is the specification's. -/
theorem passages_ref : val_main_v6 (F := Ideal) x0 x1 x2 = passages x0 x1 x2 := by
  funext i
  have h0 := idx2_lt0 i
  have h1 := idx2_lt1 i
  rw [val_main_v6_apply, val_main_v5_apply]
  unfold passages
  refine Eq.trans (congrArg (val_main_v4 (F := Ideal) x0 x1 x2) ?_) (pooled_ref x0 x1 x2 (i 0) 0 (i 1))
  funext a
  apply Fin.ext
  match a with
  | ⟨0, _⟩ => show ((i 0).val * 768 + (i 1).val) / 768 = (i 0).val; omega
  | ⟨1, _⟩ => rfl
  | ⟨2, _⟩ => show ((i 0).val * 768 + (i 1).val) % 768 = (i 1).val; omega

/-- The reference's second result is the specification's. -/
theorem sentences_ref : val_main_v34 (F := Ideal) x0 x1 x2 x4 = sentences x0 x1 x2 x4 := by
  funext i
  have h0 := idx2_lt0 i
  have h1 := idx2_lt1 i
  rw [val_main_v34_apply, val_main_v33_apply, val_main_v24_apply]
  unfold sentences spanMeanAt spanMeanOf
  show Ideal.div _ _ = _
  refine congrArg₂ Ideal.div (Finset.sum_congr rfl fun l _ => congrArg₂ (· * ·) ?_ ?_) ?_
  · rw [val_main_v23_apply, val_main_v22_apply, val_main_v17_apply, val_main_v21_apply, val_main_v15_apply,
      val_main_v14_apply, val_main_v7_apply, val_main_v16_apply, val_main_v10_apply, val_main_v9_apply, val_main_v8_apply,
      val_main_v19_apply, val_main_v18_apply, val_main_v7_apply, val_main_v20_apply, val_main_v13_apply, val_main_v12_apply,
      val_main_v11_apply]
    unfold inSpan
    show ((((IntOp.andi (IntOp.cmpi .sge (BitVec.ofNat 32 _) (x4 _)) (IntOp.cmpi .slt (BitVec.ofNat 32 _) (x4 _))).toNat : ℝ)) : EReal) = _
    have es : idx_main_v8 (idx_main_v9 (idx_main_v10 (idx_main_v16 (lidx_main_v24 (idx_main_v34 i) l))))
        = ix3 ⟨(i 0).val / 16, by omega⟩ ⟨(i 0).val % 16, by omega⟩ 0 := funext fun a => Fin.ext (by
      match a with
      | ⟨0, _⟩ => dsimp only; omega
      | ⟨1, _⟩ => dsimp only; omega
      | ⟨2, _⟩ => rfl)
    have ee : idx_main_v11 (idx_main_v12 (idx_main_v13 (idx_main_v20 (lidx_main_v24 (idx_main_v34 i) l))))
        = ix3 ⟨(i 0).val / 16, by omega⟩ ⟨(i 0).val % 16, by omega⟩ 1 := funext fun a => Fin.ext (by
      match a with
      | ⟨0, _⟩ => dsimp only; omega
      | ⟨1, _⟩ => dsimp only; omega
      | ⟨2, _⟩ => rfl)
    rw [es, ee]
  · refine Eq.trans (congrArg (val_main_v4 (F := Ideal) x0 x1 x2) ?_) (pooled_ref x0 x1 x2 ⟨(i 0).val / 16, by omega⟩ l (i 1))
    funext a
    apply Fin.ext
    match a with
    | ⟨0, _⟩ => show ((i 0).val * 768 + (i 1).val) / 12288 = (i 0).val / 16; omega
    | ⟨1, _⟩ => rfl
    | ⟨2, _⟩ => show ((i 0).val * 768 + (i 1).val) % 768 = (i 1).val; omega
  · rw [val_main_v32_apply, val_main_v31_apply, val_main_v30_apply, val_main_v29_apply, val_main_v26_apply, val_main_v25_apply,
      val_main_v28_apply, val_main_v27_apply]
    show ((((IntOp.subi (x4 _) (x4 _)).toInt : ℝ)) : EReal) = _
    have ee : idx_main_v25 (idx_main_v26 (idx_main_v31 (idx_main_v32 (idx_main_v34 i))))
        = ix3 ⟨(i 0).val / 16, by omega⟩ ⟨(i 0).val % 16, by omega⟩ 1 := funext fun a => Fin.ext (by
      match a with
      | ⟨0, _⟩ => dsimp only; omega
      | ⟨1, _⟩ => dsimp only; omega
      | ⟨2, _⟩ => rfl)
    have es : idx_main_v27 (idx_main_v28 (idx_main_v31 (idx_main_v32 (idx_main_v34 i))))
        = ix3 ⟨(i 0).val / 16, by omega⟩ ⟨(i 0).val % 16, by omega⟩ 0 := funext fun a => Fin.ext (by
      match a with
      | ⟨0, _⟩ => dsimp only; omega
      | ⟨1, _⟩ => dsimp only; omega
      | ⟨2, _⟩ => rfl)
    rw [ee, es]

/-- The reference's third result is the zero array. -/
theorem zeros_ref : val_main_v35 (F := Ideal) = fun _ => (0 : EReal) := by
  funext i
  rw [val_main_v35_apply, val_main_cst_apply]
  exact Ideal.ofBits_zero_f32

end Cert.ReferenceIdeal.RefValue

end
-- ==== Proof.lean ====
/-
  A pooling head over token features, against its plain formulation, over the extended reals.

  Both programs compute, for 64 passages of 512 tokens with 768 features, the dense layer
  `tanh (hidden · weightᵀ + bias)` of every token; the first result keeps token 0 of each passage, the second is, for
  each of 16 integer spans per passage, the mean of the pooled tokens inside the span (the sum of the tokens `l` with
  `start ≤ l < end` divided by `end − start`), the third a zero array. The kernel works on four passages per grid
  step: it flattens them to 2048 rows for one matrix product with the weight the host transposed beforehand, and
  forms the span sums by multiplying the 0/1 rows of the spans into the pooled block passage by passage; the
  reference contracts the whole arrays at once. Entry by entry both are the same sums of the same products, the
  same `tanh` and the same quotient, so no property of the inputs is used.

  The specification (one function of the arguments per result) is in Proof/Spec.lean; Proof/KernelBlock.lean reads
  one grid step's stores at an index, Proof/KernelReads.lean the blocks a step loads, Proof/KernelArrays.lean joins
  the sixteen steps into whole arrays, Proof/KernelRun.lean adds the host lines after the launch;
  Proof/RefIsSpec.lean reads the reference stage by stage. The three frames are the generated ones (the reference's
  is its generated run with the results dropped); the idealization rewrote nothing.
-/
import proofs.«147478_j34608846471536_2_alg».proof.Defs
import proofs.«147478_j34608846471536_2_alg».proof.Proof.Gen.Kernel
import proofs.«147478_j34608846471536_2_alg».proof.Proof.Gen.Kernel.Skeleton
import proofs.«147478_j34608846471536_2_alg».proof.Proof.Gen.Kernel.Launch
import proofs.«147478_j34608846471536_2_alg».proof.Proof.Gen.Kernel.Points
import proofs.«147478_j34608846471536_2_alg».proof.Proof.Gen.Kernel.Frame
import proofs.«147478_j34608846471536_2_alg».proof.Proof.Gen.KernelIdeal
import proofs.«147478_j34608846471536_2_alg».proof.Proof.Gen.KernelIdeal.Skeleton
import proofs.«147478_j34608846471536_2_alg».proof.Proof.Gen.KernelIdeal.Launch
import proofs.«147478_j34608846471536_2_alg».proof.Proof.Gen.KernelIdeal.Points
import proofs.«147478_j34608846471536_2_alg».proof.Proof.Gen.KernelIdeal.Frame
import proofs.«147478_j34608846471536_2_alg».proof.Proof.Gen.ReferenceIdeal
import proofs.«147478_j34608846471536_2_alg».proof.Proof.Gen.Pre_finite_inputs
import proofs.«147478_j34608846471536_2_alg».proof.Proof.Gen.ReferenceIdeal.Run
import proofs.«147478_j34608846471536_2_alg».proof.Proof.Gen.ReferenceIdeal.Read
import proofs.«147478_j34608846471536_2_alg».proof.Proof.Spec
import proofs.«147478_j34608846471536_2_alg».proof.Proof.KernelRun
import proofs.«147478_j34608846471536_2_alg».proof.Proof.RefIsSpec
import Idealize.ShloMosaic.Adequacy
import Idealize.ShloMosaic.Init

noncomputable section

namespace Cert.Proof

open Idealize.ShloMosaic Idealize.ShloMosaic.TcCoe Idealize.SL.Sem Cert.SpanPool

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2.2) (Cert.ReferenceIdeal.Value.run (F := Ideal) m ρ)

/-- Both programs end with the specification's three functions of the arguments: the kernel by its run read block by
    block, the reference by its run read stage by stage, the arguments agreeing. -/
theorem algebraic : Cert.algebraic_KernelIdeal_ReferenceIdeal := by
  intro m ρ m' ρ' _ hagree
  refine ⟨fun c => passages (Cert.KernelIdeal.Arrays.hidden m c) (Cert.KernelIdeal.Arrays.weight m c) (Cert.KernelIdeal.Arrays.bias m c),
    fun c => sentences (Cert.KernelIdeal.Arrays.hidden m c) (Cert.KernelIdeal.Arrays.weight m c) (Cert.KernelIdeal.Arrays.bias m c)
      (Cert.KernelIdeal.Arrays.spans m c),
    fun _ => fun _ => (0 : EReal), Cert.KernelIdeal.Run.run m ρ, ?_⟩
  refine (θ_run Cert.ReferenceIdeal.defs _ _).mono (fun _ h c => ?_) (Cert.ReferenceIdeal.Value.run (F := Ideal) m' ρ')
  obtain ⟨a0, a1, a2, a3, a4⟩ := hagree c
  refine ⟨(h c).1.trans ?_, (h c).2.1.trans ?_, (h c).2.2.1.trans ?_, (h c).2.2.2⟩
  · refine (Cert.ReferenceIdeal.RefValue.passages_ref _ _ _).trans ?_
    rw [a0, a1, a2]
  · refine (Cert.ReferenceIdeal.RefValue.sentences_ref _ _ _ _).trans ?_
    rw [a0, a1, a2, a4]
  · exact Cert.ReferenceIdeal.RefValue.zeros_ref

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
